-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x64 .f32) (main_arg7 : FVec F S64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S50000x256 .f32) (main_arg1 : IVec S800000 32) (main_arg2 : IVec S800000 32) (main_arg3 : FVec F S800000 .f32) (main_arg4 : FVec F S256x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 64
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S800000x1, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x1, .f32⟩
  | .hbm, ⟨57, _⟩ => ⟨S800000x64, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v14) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S800000x1, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S800000x1, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The two programs' common mathematics, as composable stages over whole arrays.

  A graph-convolution layer applied to node features h (one row per node) with a weight matrix W and a bias b is

      out[n, :] = b + Σ over edges e with dst[e] = n of  ew[e] · (h · W)[src'[e], :]

  where src' is src with a negative entry wrapped around by the number of nodes. It is computed in four stages:
  the dense product h · W (`dense1`, `dense2`); the gather of its rows at src', scaled edge by edge, and their
  scatter-add into a zero array at dst (`agg128`, `agg64`: stated once, by the host operations themselves, and never
  opened — both programs apply the SAME operations here); the bias added to every row (`addBias128`, `addBias64`);
  and, for the hidden layer, the maximum with zero (`relu128`). The encoder is `hidden` followed by two `head`s.

  Read at an index over the extended reals: a dense product is the plain sum over the contracted axis, the bias
  stage adds the bias entry of the column, the maximum is taken entry by entry.
-/
import proofs.«123303_j8495445311558_1_alg».proof.Proof.Gen.ReferenceIdeal.Read
import Idealize.ShloMosaic.Lib.ValueIdx
import Idealize.ShloMosaic.PureOps.Ideal.Laws

noncomputable section

namespace Cert.Gcn

open Cert.ReferenceIdeal Cert.ReferenceIdeal.Gen Cert.ReferenceIdeal.Read Idealize.ShloMosaic Idealize.ShloMosaic.TcCoe

variable {F : FTy → Type} [FloatOps F]

/-! ## The stages -/

/-- Node features [50000, 256] times a weight matrix [256, 128]. -/
def dense1 (a : S50000x256.Idx → Elt F .f32) (w : S256x128.Idx → Elt F .f32) : S50000x128.Idx → Elt F .f32 :=
  Host.dotGeneral dot_S50000x256_S256x128_S50000x128_1_0_0_1_n_n none a w

/-- Hidden features [50000, 128] times a weight matrix [128, 64]. -/
def dense2 (h : S50000x128.Idx → Elt F .f32) (w : S128x64.Idx → Elt F .f32) : S50000x64.Idx → Elt F .f32 :=
  Host.dotGeneral dot_S50000x128_S128x64_S50000x64_1_0_0_1_n_n none h w

/-- The source node of every edge as a gather's start index: a negative entry wrapped around by the number of nodes. -/
def startRows (src : S800000.Idx → Elt F .i32) : S800000x1.Idx → Elt F .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Rows of width 128 gathered at the edges' sources, scaled by the edge weights, scatter-added at the edges' targets. -/
def agg128 (h : S50000x128.Idx → Elt F .f32) (src dst : S800000.Idx → Elt F .i32) (ew : S800000.Idx → Elt F .f32) :
    S50000x128.Idx → Elt F .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h (startRows src))
      (broadcastInDim S800000x128 ![0, 1] bcast_S800000x1_S800000x128_0_1 (broadcastInDim S800000x1 ![0] bcast_S800000_S800000x1_0 ew)))

/-- The same for rows of width 64. -/
def agg64 (h : S50000x64.Idx → Elt F .f32) (src dst : S800000.Idx → Elt F .i32) (ew : S800000.Idx → Elt F .f32) :
    S50000x64.Idx → Elt F .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf (Host.gather gather_S50000x64_S800000x1_S800000x64_1_0_n_n_0_1_164 h (startRows src))
      (broadcastInDim S800000x64 ![0, 1] bcast_S800000x1_S800000x64_0_1 (broadcastInDim S800000x1 ![0] bcast_S800000_S800000x1_0 ew)))

/-- A bias of length 128 added to every row. -/
def addBias128 (g : S50000x128.Idx → Elt F .f32) (b : S128.Idx → Elt F .f32) : S50000x128.Idx → Elt F .f32 :=
  addf g (broadcastInDim S50000x128 ![0, 1] bcast_S1x128_S50000x128_0_1 (broadcastInDim S1x128 ![1] bcast_S128_S1x128_1 b))

/-- A bias of length 64 added to every row. -/
def addBias64 (g : S50000x64.Idx → Elt F .f32) (b : S64.Idx → Elt F .f32) : S50000x64.Idx → Elt F .f32 :=
  addf g (broadcastInDim S50000x64 ![0, 1] bcast_S1x64_S50000x64_0_1 (broadcastInDim S1x64 ![1] bcast_S64_S1x64_1 b))

/-- The maximum with zero, entry by entry. -/
def relu128 (g : S50000x128.Idx → Elt F .f32) : S50000x128.Idx → Elt F .f32 :=
  maximumf g (broadcastInDim S50000x128 ![] bcast_S_S50000x128 (constant S_ .f32 0x00000000#32))

/-- The hidden layer: a graph convolution to width 128, then the maximum with zero. -/
def hidden (x : S50000x256.Idx → Elt F .f32) (src dst : S800000.Idx → Elt F .i32) (ew : S800000.Idx → Elt F .f32)
    (W1 : S256x128.Idx → Elt F .f32) (b1 : S128.Idx → Elt F .f32) : S50000x128.Idx → Elt F .f32 :=
  relu128 (addBias128 (agg128 (dense1 x W1) src dst ew) b1)

/-- An output head: a graph convolution of the hidden features to width 64. -/
def head (h : S50000x128.Idx → Elt F .f32) (src dst : S800000.Idx → Elt F .i32) (ew : S800000.Idx → Elt F .f32)
    (W : S128x64.Idx → Elt F .f32) (b : S64.Idx → Elt F .f32) : S50000x64.Idx → Elt F .f32 :=
  addBias64 (agg64 (dense2 h W) src dst ew) b

/-! ## The reference's two results are the two heads of the hidden layer -/

theorem ref_mu (x0 : S50000x256.Idx → Elt F .f32) (x1 x2 : S800000.Idx → Elt F .i32) (x3 : S800000.Idx → Elt F .f32)
    (x4 : S256x128.Idx → Elt F .f32) (x5 : S128.Idx → Elt F .f32) (x6 : S128x64.Idx → Elt F .f32) (x7 : S64.Idx → Elt F .f32) :
    val_main_v34 (F := F) x0 x1 x2 x3 x4 x5 x6 x7 = head (hidden x0 x1 x2 x3 x4 x5) x1 x2 x3 x6 x7 := rfl

theorem ref_logvar (x0 : S50000x256.Idx → Elt F .f32) (x1 x2 : S800000.Idx → Elt F .i32) (x3 : S800000.Idx → Elt F .f32)
    (x4 : S256x128.Idx → Elt F .f32) (x5 : S128.Idx → Elt F .f32) (x8 : S128x64.Idx → Elt F .f32) (x9 : S64.Idx → Elt F .f32) :
    val_main_v51 (F := F) x0 x1 x2 x3 x4 x5 x8 x9 = head (hidden x0 x1 x2 x3 x4 x5) x1 x2 x3 x8 x9 := rfl

/-! ## The stages read at an index, over the extended reals -/

/-- Row `r`, column `k` of a [50000, 256] array, and row `k`, column `c` of a [256, 128] one. -/
abbrev at256 (i : S50000x128.Idx) (k : Fin 256) : S50000x256.Idx := lidx_main_v0 i k
abbrev wt256 (i : S50000x128.Idx) (k : Fin 256) : S256x128.Idx := ridx_main_v0 i k

/-- An entry of the first dense product is the sum over the 256 input features. -/
theorem dense1_apply (a : S50000x256.Idx → Elt Ideal .f32) (w : S256x128.Idx → Elt Ideal .f32) (i : S50000x128.Idx) :
    dense1 (F := Ideal) a w i = ∑ k : Fin 256, a (at256 i k) * w (wt256 i k) :=
  val_main_v0_apply a w i

/-- Row `r`, column `k` of a [50000, 128] array, and row `k`, column `c` of a [128, 64] one. -/
abbrev at128 (i : S50000x64.Idx) (k : Fin 128) : S50000x128.Idx := fun a => match a with
  | ⟨0, _⟩ => ⟨(i 0).val, (i 0).isLt⟩
  | ⟨1, _⟩ => ⟨k.val, k.isLt⟩
abbrev wt128 (i : S50000x64.Idx) (k : Fin 128) : S128x64.Idx := fun a => match a with
  | ⟨0, _⟩ => ⟨k.val, k.isLt⟩
  | ⟨1, _⟩ => ⟨(i 1).val, (i 1).isLt⟩

/-- An entry of the second dense product is the sum over the 128 hidden features. -/
theorem dense2_apply (h : S50000x128.Idx → Elt Ideal .f32) (w : S128x64.Idx → Elt Ideal .f32) (i : S50000x64.Idx) :
    dense2 (F := Ideal) h w i = ∑ k : Fin 128, h (at128 i k) * w (wt128 i k) := by
  unfold dense2
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = at128 i k := funext fun a => Fin.ext (by
    match a with
    | ⟨0, _⟩ => exact lhs_main_v18_0 _ _
    | ⟨1, _⟩ => exact (lhs_main_v18_1 _ _).trans hk)
  have er : dot_S50000x128_S128x64_S50000x64_1_0_0_1_n_n.rhsIdx i ((ValueIdx.contrEquiv1 dot_S50000x128_S128x64_S50000x64_1_0_0_1_n_n 128 rfl rfl).symm k) = wt128 i k := funext fun a => Fin.ext (by
    match a with
    | ⟨0, _⟩ => exact (rhs_main_v18_0 _ _).trans hk
    | ⟨1, _⟩ => exact rhs_main_v18_1 _ _)
  rw [el, er]

/-- The bias entry that lands on an entry of a [50000, 128] array: the one of its column. -/
abbrev col128 (i : S50000x128.Idx) : S128.Idx := fun a => match a with
  | ⟨0, _⟩ => ⟨(i 1).val, (i 1).isLt⟩
abbrev col64 (i : S50000x64.Idx) : S64.Idx := fun a => match a with
  | ⟨0, _⟩ => ⟨(i 1).val, (i 1).isLt⟩

theorem addBias128_apply (g : S50000x128.Idx → Elt Ideal .f32) (b : S128.Idx → Elt Ideal .f32) (i : S50000x128.Idx) :
    addBias128 (F := Ideal) g b i = g i + b (col128 i) := by
  show g i + val_main_v15 (F := Ideal) b i = _
  rw [val_main_v15_apply, val_main_v14_apply]
  exact congrArg (g i + b ·) (funext fun a => Fin.ext (by match a with | ⟨0, _⟩ => rfl))

theorem addBias64_apply (g : S50000x64.Idx → Elt Ideal .f32) (b : S64.Idx → Elt Ideal .f32) (i : S50000x64.Idx) :
    addBias64 (F := Ideal) g b i = g i + b (col64 i) := by
  show g i + val_main_v33 (F := Ideal) b i = _
  rw [val_main_v33_apply, val_main_v32_apply]
  exact congrArg (g i + b ·) (funext fun a => Fin.ext (by match a with | ⟨0, _⟩ => rfl))

theorem relu128_apply (g : S50000x128.Idx → Elt Ideal .f32) (i : S50000x128.Idx) :
    relu128 (F := Ideal) g i = max (g i) (Ideal.ofBits .f32 0x00000000#32) := by
  show max (g i) (val_main_call0_v0 (F := Ideal) i) = _
  rw [val_main_call0_v0_apply]; rfl

end Cert.Gcn

end
-- ==== Proof.EndState.lean ====
/-
  The idealized kernel program, run to its end with the final memory READ.

  @main is six pallas_call regions among three stretches of host operations. The contents of the
  TensorCore's buffers at the nine segment boundaries form a fold from the launch memory: a host
  stretch maps a valuation to the valuation after its operations, a region replaces its three
  arrays by what its write-backs leave (its two inputs as entered, its output the fold of the ten
  blocks written back) and keeps every other buffer. Every weakly fair execution terminates, and
  every buffer that is not scoped to a region ends at the last valuation of that fold. In
  particular the two result buffers end there, which is what the value of the program is read from.
-/
import proofs.«123303_j8495445311558_1_alg».proof.Proof.Gen.KernelIdeal.Frame

set_option maxRecDepth 16384

noncomputable section

namespace Cert.KernelIdeal.EndState

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, and in
    every final state each buffer not scoped to a region holds the last valuation of the fold through the nine
    segments. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- A buffer of @main (none of them is scoped) is read in the final state at the fold's last valuation. -/
theorem end_at (r : PUnit × MemSt nD τ sig (Elt F))
    (h : ∀ c : Dev nD, ∀ b ∈ Pipeline.ucRefs τ sig, r.2.mem (((c : Thread nD τ)).1, b) = W9 m ρ c b)
    (c : Dev nD) (b : Ref sig .tc) (hb : ¬ (Proc.devRef .tc b : DevRef τ sig).isScoped) :
    r.2.mem (((c : Thread nD τ)).1, Proc.devRef .tc b) = W9 m ρ c (Proc.devRef .tc b) :=
  h c _ (mem_uc b hb)

end Cert.KernelIdeal.EndState

end
-- ==== Proof.Region0.lean ====
/-
  The first region: node features x [50000, 256] times the weight matrix W1 [256, 128].

  The grid has ten points. Point t stages rows 5000·t … 5000·t + 4999 of x and all of W1, multiplies them
  (both operands narrowed first — the identity over the extended reals — into a zero accumulator) and
  writes the [5000, 128] product back as rows 5000·t … of the output. Entry (r, c) of block t is
  Σ_k x[5000·t + r, k] · W1[k, c], which is entry (5000·t + r, c) of the whole product x · W1; the ten blocks
  tile the output, so the region leaves x · W1.
-/
import proofs.«123303_j8495445311558_1_alg».proof.Proof.Gen.KernelIdeal.Frame
import proofs.«123303_j8495445311558_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-! ## A block of the product, at an index -/

/-- The block product's dimensions: [5000, 256] · [256, 128], contracting the 256 features. -/
abbrev blockDot := dot_S5000x256_S256x128_S5000x128_1_0_0_1_n_n

theorem lhs_row (j : S5000x128.Idx) (q : blockDot.contr.Idx) : (blockDot.lhsIdx j q 0).val = (j 0).val := by
  unfold DotDims.lhsIdx
  rw [dif_neg (show ¬(0 : Fin S5000x256.rank) ∈ blockDot.lhsBatch by decide), dif_pos (show (0 : Fin S5000x256.rank) ∈ blockDot.lhsNonContracting by decide)]
  rfl
theorem lhs_col (j : S5000x128.Idx) (q : blockDot.contr.Idx) : (blockDot.lhsIdx j q 1).val = (q ⟨0, by decide⟩).val :=
  blockDot.lhsIdx_val_of_single rfl j q
theorem rhs_row (j : S5000x128.Idx) (q : blockDot.contr.Idx) : (blockDot.rhsIdx j q 0).val = (q ⟨0, by decide⟩).val :=
  blockDot.rhsIdx_val_of_single rfl j q
theorem rhs_col (j : S5000x128.Idx) (q : blockDot.contr.Idx) : (blockDot.rhsIdx j q 1).val = (j 1).val := by
  unfold DotDims.rhsIdx
  rw [dif_neg (show ¬(1 : Fin S256x128.rank) ∈ blockDot.rhsBatch by decide), dif_pos (show (1 : Fin S256x128.rank) ∈ blockDot.rhsNonContracting by decide)]
  rfl

/-- Entry (row of `j`, `k`) of the block of rows, and entry (`k`, column of `j`) of the weights. -/
abbrev rowAt (j : S5000x128.Idx) (k : Fin 256) : S5000x256.Idx := fun a => match a with
  | ⟨0, _⟩ => ⟨(j 0).val, (j 0).isLt⟩
  | ⟨1, _⟩ => ⟨k.val, k.isLt⟩
abbrev colAt (j : S5000x128.Idx) (k : Fin 256) : S256x128.Idx := fun a => match a with
  | ⟨0, _⟩ => ⟨k.val, k.isLt⟩
  | ⟨1, _⟩ => ⟨(j 1).val, (j 1).isLt⟩

/-- What the body stores, at an index: the narrowing of both operands is the identity over the extended reals and the
    accumulator is zero, so the entry is the plain sum over the 256 contracted features. -/
theorem block_product (x0 : Vec Ideal S5000x256 .f32) (x1 : Vec Ideal S256x128 .f32) (j : S5000x128.Idx) :
    k0_pay1 x0 x1 j = ∑ k : Fin 256, x0 (rowAt j k) * x1 (colAt j k) := by
  unfold k0_pay1
  refine (Ideal.matmul_constant_zero_apply blockDot none _ _ j).trans ?_
  rw [← Equiv.sum_comp (ValueIdx.contrEquiv1 blockDot 256 rfl rfl).symm]
  refine Finset.sum_congr rfl fun k _ => ?_
  have hk := ValueIdx.contrEquiv1_symm_val blockDot 256 rfl rfl k
  have el : blockDot.lhsIdx j ((ValueIdx.contrEquiv1 blockDot 256 rfl rfl).symm k) = rowAt j k := funext fun a => Fin.ext (by
    match a with
    | ⟨0, _⟩ => exact lhs_row _ _
    | ⟨1, _⟩ => exact (lhs_col _ _).trans hk)
  have er : blockDot.rhsIdx j ((ValueIdx.contrEquiv1 blockDot 256 rfl rfl).symm k) = colAt j k := funext fun a => Fin.ext (by
    match a with
    | ⟨0, _⟩ => exact (rhs_row _ _).trans hk
    | ⟨1, _⟩ => exact rhs_col _ _)
  rw [el, er]
  rfl

/-! ## From the ten blocks to the whole array -/

/-- The index maps over the grid: at point `t` the rows' block and the output's block are both block `t` of their
    arrays (5000 rows each, all columns); the weights are taken whole at every point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the dense product of the two whole arrays as the region finds them:
    row `r` of the block is row `5000·t + r` of the array, and the sum over the features is the same sum. -/
theorem flushed_eq (c : Dev nD) (t : Fin cfg0.N) :
    (dat0 V c).flushed 2 t = ((cfg0.win 2).blk t).view.read (Elt Ideal) (Cert.Gcn.dense1 (V c main_arg0) (V c main_arg4)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x128) zeros2]
  obtain ⟨e0, e1, e2, e3, e4⟩ := idx_facts t
  funext j
  refine (block_product _ _ j).trans ?_
  refine Eq.trans ?_ (Cert.Gcn.dense1_apply (V c main_arg0) (V c main_arg4) (((cfg0.win 2).blk t).view.emb j)).symm
  refine Finset.sum_congr rfl fun k _ => ?_
  have h0 : ((cfg0.win 0).blk t).view.emb (rowAt j k) = Cert.Gcn.at256 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (colAt j k) = Cert.Gcn.wt256 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  exact congrArg₂ _ (congrArg (V c main_arg0) h0) (congrArg (V c main_arg4) h1)

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten blocks tile the output: row `n` is in the block of point `n / 5000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the first region leaves: the dense product of the node features and the first weight matrix, whole. -/
theorem final (c : Dev nD) : (dat0 V c).arrAt 2 cfg0.N = Cert.Gcn.dense1 (V c main_arg0) (V c main_arg4) :=
  (dat0 V c).arrAt_eq_of_cover 2 _ (fun t _ => flushed_eq V c t) covered

end Cert.KernelIdeal.Region0

end
-- ==== Proof.Region1.lean ====
/-
  The hidden layer's bias stage: a bias of length 128 added to every row of a [50000, 128] array, then the maximum with zero.

  The grid has ten points. Point t stages rows 5000·t … 5000·t + 4999 of the array and the whole bias vector,
  adds to each staged row the bias (laid out as one row, spread over the rows), takes the maximum with zero entry by entry,
  and writes the [5000, 128] block back as rows 5000·t … of the output. Entry (p, q) of block t is
  max(g[5000·t + p, q] + b[q], 0), which is entry (5000·t + p, q) of the whole-array result; the ten blocks tile
  the output.
-/
import proofs.«123303_j8495445311558_1_alg».proof.Proof.Gen.KernelIdeal.Frame
import proofs.«123303_j8495445311558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-! ## A block of the result, at an index -/

/-- What the body stores, at row `p` and column `q` of the block: the bias vector is laid out as one row and that row
    is spread over the 5000 rows, so the entry is the staged entry plus the bias entry of its column, and then the
    maximum with zero. -/
theorem block_entry (x0 : Vec Ideal S5000x128 .f32) (x1 : Vec Ideal S128 .f32) (p : Fin 5000) (q : Fin 128) :
    k1_pay1 x0 x1 (ValueIdx.ix2 p q) = max (x0 (ValueIdx.ix2 p q) + x1 (ValueIdx.ix1 q)) (Ideal.ofBits .f32 0x00000000#32) := by
  unfold k1_pay1
  show max (shapeCast S5000x128 x0 shapeCasts_S5000x128_S5000x128 (ValueIdx.ix2 p q) + broadcastTo S5000x128 (shapeCast S1x128 x1 shapeCasts_S128_S1x128) broadcasts_S1x128_S5000x128 (ValueIdx.ix2 p q)) (Ideal.ofBits .f32 0x00000000#32) = _
  rw [shapeCast_self, ValueIdx.broadcastTo_1b_ab_apply, ValueIdx.shapeCast_a_1a_apply]

/-! ## From the ten blocks to the whole array -/

/-- The index maps over the grid: at point `t` the input's block and the output's block are both block `t` of their
    arrays (5000 rows each, all columns); the bias vector is taken whole at every point. -/
theorem idx_facts : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0 :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the whole-array result of the two arrays as the region finds them:
    row `p` of the block is row `5000·t + p` of the array, and the bias entry is the one of the same column. -/
theorem flushed_eq (c : Dev nD) (t : Fin cfg1.N) :
    (dat1 V c).flushed 2 t = ((cfg1.win 2).blk t).view.read (Elt Ideal) (Cert.Gcn.relu128 (Cert.Gcn.addBias128 (V c main_v13) (V c main_arg5))) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128) zeros1]
  obtain ⟨e0, e1, e2, e3⟩ := idx_facts t
  funext j
  obtain ⟨p, q, rfl⟩ : ∃ (p : Fin 5000) (q : Fin 128), j = ValueIdx.ix2 p q := ⟨j 0, j 1, ValueIdx.eq_ix2 j⟩
  refine (block_entry _ _ p q).trans ?_
  refine Eq.trans ?_ ((Cert.Gcn.relu128_apply (Cert.Gcn.addBias128 (V c main_v13) (V c main_arg5)) (((cfg1.win 2).blk t).view.emb (ValueIdx.ix2 p q))).trans
    (congrArg (max · (Ideal.ofBits .f32 0x00000000#32)) (Cert.Gcn.addBias128_apply (V c main_v13) (V c main_arg5) (((cfg1.win 2).blk t).view.emb (ValueIdx.ix2 p q))))).symm
  have h0 : ((cfg1.win 0).blk t).view.emb (ValueIdx.ix2 p q) = ((cfg1.win 2).blk t).view.emb (ValueIdx.ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ValueIdx.ix1 q) = Cert.Gcn.col128 (((cfg1.win 2).blk t).view.emb (ValueIdx.ix2 p q)) := by
    funext a; apply Fin.ext
    match a with
    | ⟨0, _⟩ => show win1_1.index t (0 : Fin 1) * 128 + 1 * q.val = win1_2.index t (1 : Fin 2) * 128 + 1 * q.val; omega
  exact congrArg (max · (Ideal.ofBits .f32 0x00000000#32)) (congrArg₂ _ (congrArg (V c main_v13) h0) (congrArg (V c main_arg5) h1))

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v14).slice (win1_2.rect t)).set ↔ _
  rw [View.set_slice_whole, Rect.mem_set_unit]
  exact Iff.rfl

/-- The ten blocks tile the output: row `n` is in the block of point `n / 5000`. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY this region leaves: the maximum with zero of the aggregated rows plus the hidden layer's bias, whole. -/
theorem final (c : Dev nD) : (dat1 V c).arrAt 2 cfg1.N = Cert.Gcn.relu128 (Cert.Gcn.addBias128 (V c main_v13) (V c main_arg5)) :=
  (dat1 V c).arrAt_eq_of_cover 2 _ (fun t _ => flushed_eq V c t) covered

end Cert.KernelIdeal.Region1

end
-- ==== Proof.Region2.lean ====
/-
  The first (mean) head's dense product: hidden features h [50000, 128] times a weight matrix W [128, 64].

  The grid has ten points. Point t stages rows 5000·t … 5000·t + 4999 of h and all of W, multiplies them
  (both operands narrowed first — the identity over the extended reals — into a zero accumulator) and
  writes the [5000, 64] product back as rows 5000·t … of the output. Entry (r, c) of block t is
  Σ_k h[5000·t + r, k] · W[k, c], which is entry (5000·t + r, c) of the whole product h · W; the ten blocks
  tile the output, so the region leaves h · W.
-/
import proofs.«123303_j8495445311558_1_alg».proof.Proof.Gen.KernelIdeal.Frame
import proofs.«123303_j8495445311558_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-! ## A block of the product, at an index -/

/-- The block product's dimensions: [5000, 128] · [128, 64], contracting the 128 features. -/
abbrev blockDot := dot_S5000x128_S128x64_S5000x64_1_0_0_1_n_n

theorem lhs_row (j : S5000x64.Idx) (q : blockDot.contr.Idx) : (blockDot.lhsIdx j q 0).val = (j 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (j : S5000x64.Idx) (q : blockDot.contr.Idx) : (blockDot.lhsIdx j q 1).val = (q ⟨0, by decide⟩).val :=
  blockDot.lhsIdx_val_of_single rfl j q
theorem rhs_row (j : S5000x64.Idx) (q : blockDot.contr.Idx) : (blockDot.rhsIdx j q 0).val = (q ⟨0, by decide⟩).val :=
  blockDot.rhsIdx_val_of_single rfl j q
theorem rhs_col (j : S5000x64.Idx) (q : blockDot.contr.Idx) : (blockDot.rhsIdx j q 1).val = (j 1).val := by
  unfold DotDims.rhsIdx
  rw [dif_neg (show ¬(1 : Fin S128x64.rank) ∈ blockDot.rhsBatch by decide), dif_pos (show (1 : Fin S128x64.rank) ∈ blockDot.rhsNonContracting by decide)]
  rfl

/-- Entry (row of `j`, `k`) of the block of rows, and entry (`k`, column of `j`) of the weights. -/
abbrev rowAt (j : S5000x64.Idx) (k : Fin 128) : S5000x128.Idx := fun a => match a with
  | ⟨0, _⟩ => ⟨(j 0).val, (j 0).isLt⟩
  | ⟨1, _⟩ => ⟨k.val, k.isLt⟩
abbrev colAt (j : S5000x64.Idx) (k : Fin 128) : S128x64.Idx := fun a => match a with
  | ⟨0, _⟩ => ⟨k.val, k.isLt⟩
  | ⟨1, _⟩ => ⟨(j 1).val, (j 1).isLt⟩

/-- What the body stores, at an index: the narrowing of both operands is the identity over the extended reals and the
    accumulator is zero, so the entry is the plain sum over the 128 contracted features. -/
theorem block_product (x0 : Vec Ideal S5000x128 .f32) (x1 : Vec Ideal S128x64 .f32) (j : S5000x64.Idx) :
    k2_pay1 x0 x1 j = ∑ k : Fin 128, x0 (rowAt j k) * x1 (colAt j k) := by
  unfold k2_pay1
  simp only [shapeCast_self]
  refine (Ideal.matmul_constant_zero_apply blockDot none _ _ j).trans ?_
  rw [← Equiv.sum_comp (ValueIdx.contrEquiv1 blockDot 128 rfl rfl).symm]
  refine Finset.sum_congr rfl fun k _ => ?_
  have hk := ValueIdx.contrEquiv1_symm_val blockDot 128 rfl rfl k
  have el : blockDot.lhsIdx j ((ValueIdx.contrEquiv1 blockDot 128 rfl rfl).symm k) = rowAt j k := funext fun a => Fin.ext (by
    match a with
    | ⟨0, _⟩ => exact lhs_row _ _
    | ⟨1, _⟩ => exact (lhs_col _ _).trans hk)
  have er : blockDot.rhsIdx j ((ValueIdx.contrEquiv1 blockDot 128 rfl rfl).symm k) = colAt j k := funext fun a => Fin.ext (by
    match a with
    | ⟨0, _⟩ => exact (rhs_row _ _).trans hk
    | ⟨1, _⟩ => exact rhs_col _ _)
  rw [el, er]
  rfl

/-! ## From the ten blocks to the whole array -/

/-- The index maps over the grid: at point `t` the rows' block and the output's block are both block `t` of their
    arrays (5000 rows each, all columns); the weights are taken whole at every point. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the ten row blocks is some point's. -/
theorem idx_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the dense product of the two whole arrays as the region finds them:
    row `r` of the block is row `5000·t + r` of the array, and the sum over the features is the same sum. -/
theorem flushed_eq (c : Dev nD) (t : Fin cfg2.N) :
    (dat2 V c).flushed 2 t = ((cfg2.win 2).blk t).view.read (Elt Ideal) (Cert.Gcn.dense2 (V c main_v14) (V c main_arg6)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x64) zeros2]
  obtain ⟨e0, e1, e2, e3, e4⟩ := idx_facts t
  funext j
  refine (block_product _ _ j).trans ?_
  refine Eq.trans ?_ (Cert.Gcn.dense2_apply (V c main_v14) (V c main_arg6) (((cfg2.win 2).blk t).view.emb j)).symm
  refine Finset.sum_congr rfl fun k _ => ?_
  have h0 : ((cfg2.win 0).blk t).view.emb (rowAt j k) = Cert.Gcn.at128 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (colAt j k) = Cert.Gcn.wt128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact congrArg₂ _ (congrArg (V c main_v14) h0) (congrArg (V c main_arg6) h1)

/-- An index of the output array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v15).slice (win2_2.rect t)).set ↔ _
  rw [View.set_slice_whole, Rect.mem_set_unit]
  exact Iff.rfl

/-- The ten blocks tile the output: row `n` is in the block of point `n / 5000`. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE ARRAY this region leaves: the dense product of the hidden features and the first (mean) head's weight matrix, whole. -/
theorem final (c : Dev nD) : (dat2 V c).arrAt 2 cfg2.N = Cert.Gcn.dense2 (V c main_v14) (V c main_arg6) :=
  (dat2 V c).arrAt_eq_of_cover 2 _ (fun t _ => flushed_eq V c t) covered

end Cert.KernelIdeal.Region2

end
-- ==== Proof.Region3.lean ====
/-
  The first (mean) head's bias stage: a bias of length 64 added to every row of a [50000, 64] array.

  The grid has ten points. Point t stages rows 5000·t … 5000·t + 4999 of the array and the whole bias vector,
  adds to each staged row the bias (laid out as one row, spread over the rows)
  and writes the [5000, 64] block back as rows 5000·t … of the output. Entry (p, q) of block t is
  g[5000·t + p, q] + b[q], which is entry (5000·t + p, q) of the whole-array result; the ten blocks tile
  the output.
-/
import proofs.«123303_j8495445311558_1_alg».proof.Proof.Gen.KernelIdeal.Frame
import proofs.«123303_j8495445311558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-! ## A block of the result, at an index -/

/-- What the body stores, at row `p` and column `q` of the block: the bias vector is laid out as one row and that row
    is spread over the 5000 rows, so the entry is the staged entry plus the bias entry of its column. -/
theorem block_entry (x0 : Vec Ideal S5000x64 .f32) (x1 : Vec Ideal S64 .f32) (p : Fin 5000) (q : Fin 64) :
    k3_pay1 x0 x1 (ValueIdx.ix2 p q) = x0 (ValueIdx.ix2 p q) + x1 (ValueIdx.ix1 q) := by
  unfold k3_pay1
  show shapeCast S5000x64 x0 shapeCasts_S5000x64_S5000x64 (ValueIdx.ix2 p q) + broadcastTo S5000x64 (shapeCast S1x64 x1 shapeCasts_S64_S1x64) broadcasts_S1x64_S5000x64 (ValueIdx.ix2 p q) = _
  rw [shapeCast_self, ValueIdx.broadcastTo_1b_ab_apply, ValueIdx.shapeCast_a_1a_apply]

/-! ## From the ten blocks to the whole array -/

/-- The index maps over the grid: at point `t` the input's block and the output's block are both block `t` of their
    arrays (5000 rows each, all columns); the bias vector is taken whole at every point. -/
theorem idx_facts : ∀ t : Fin cfg3.N, win3_0.index t (0 : Fin 2) = win3_2.index t (0 : Fin 2)
    ∧ win3_0.index t (1 : Fin 2) = 0
    ∧ win3_1.index t (0 : Fin 1) = 0
    ∧ win3_2.index t (1 : Fin 2) = 0 :=
  (by decide +kernel : ∀ t : Fin grid3.N, _)

/-- Every one of the ten row blocks is some point's. -/
theorem idx_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the whole-array result of the two arrays as the region finds them:
    row `p` of the block is row `5000·t + p` of the array, and the bias entry is the one of the same column. -/
theorem flushed_eq (c : Dev nD) (t : Fin cfg3.N) :
    (dat3 V c).flushed 2 t = ((cfg3.win 2).blk t).view.read (Elt Ideal) (Cert.Gcn.addBias64 (V c main_v28) (V c main_arg7)) := by
  show (cfg3.win 2).cut (grid3.coords t) ((dat3 V c).after 2 t) = _
  rw [after3_2]
  unfold out3_2
  rw [View.canon_unit_zero zeros2]
  simp only [View.ld_unit_zero (S := S5000x64) zeros2, View.ld_unit_zero (S := S64) zeros1]
  obtain ⟨e0, e1, e2, e3⟩ := idx_facts t
  funext j
  obtain ⟨p, q, rfl⟩ : ∃ (p : Fin 5000) (q : Fin 64), j = ValueIdx.ix2 p q := ⟨j 0, j 1, ValueIdx.eq_ix2 j⟩
  refine (block_entry _ _ p q).trans ?_
  refine Eq.trans ?_ (Cert.Gcn.addBias64_apply (V c main_v28) (V c main_arg7) (((cfg3.win 2).blk t).view.emb (ValueIdx.ix2 p q))).symm
  have h0 : ((cfg3.win 0).blk t).view.emb (ValueIdx.ix2 p q) = ((cfg3.win 2).blk t).view.emb (ValueIdx.ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ValueIdx.ix1 q) = Cert.Gcn.col64 (((cfg3.win 2).blk t).view.emb (ValueIdx.ix2 p q)) := by
    funext a; apply Fin.ext
    match a with
    | ⟨0, _⟩ => show win3_1.index t (0 : Fin 1) * 64 + 1 * q.val = win3_2.index t (1 : Fin 2) * 64 + 1 * q.val; omega
  exact congrArg₂ _ (congrArg (V c main_v28) h0) (congrArg (V c main_arg7) h1)

/-- An index of the output array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v29).slice (win3_2.rect t)).set ↔ _
  rw [View.set_slice_whole, Rect.mem_set_unit]
  exact Iff.rfl

/-- The ten blocks tile the output: row `n` is in the block of point `n / 5000`. -/
theorem covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE ARRAY this region leaves: the aggregated rows plus the head's bias, whole. -/
theorem final (c : Dev nD) : (dat3 V c).arrAt 2 cfg3.N = Cert.Gcn.addBias64 (V c main_v28) (V c main_arg7) :=
  (dat3 V c).arrAt_eq_of_cover 2 _ (fun t _ => flushed_eq V c t) covered

end Cert.KernelIdeal.Region3

end
-- ==== Proof.Region4.lean ====
/-
  The second (log-variance) head's dense product: hidden features h [50000, 128] times a weight matrix W [128, 64].

  The grid has ten points. Point t stages rows 5000·t … 5000·t + 4999 of h and all of W, multiplies them
  (both operands narrowed first — the identity over the extended reals — into a zero accumulator) and
  writes the [5000, 64] product back as rows 5000·t … of the output. Entry (r, c) of block t is
  Σ_k h[5000·t + r, k] · W[k, c], which is entry (5000·t + r, c) of the whole product h · W; the ten blocks
  tile the output, so the region leaves h · W.
-/
import proofs.«123303_j8495445311558_1_alg».proof.Proof.Gen.KernelIdeal.Frame
import proofs.«123303_j8495445311558_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-! ## A block of the product, at an index -/

/-- The block product's dimensions: [5000, 128] · [128, 64], contracting the 128 features. -/
abbrev blockDot := dot_S5000x128_S128x64_S5000x64_1_0_0_1_n_n

theorem lhs_row (j : S5000x64.Idx) (q : blockDot.contr.Idx) : (blockDot.lhsIdx j q 0).val = (j 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (j : S5000x64.Idx) (q : blockDot.contr.Idx) : (blockDot.lhsIdx j q 1).val = (q ⟨0, by decide⟩).val :=
  blockDot.lhsIdx_val_of_single rfl j q
theorem rhs_row (j : S5000x64.Idx) (q : blockDot.contr.Idx) : (blockDot.rhsIdx j q 0).val = (q ⟨0, by decide⟩).val :=
  blockDot.rhsIdx_val_of_single rfl j q
theorem rhs_col (j : S5000x64.Idx) (q : blockDot.contr.Idx) : (blockDot.rhsIdx j q 1).val = (j 1).val := by
  unfold DotDims.rhsIdx
  rw [dif_neg (show ¬(1 : Fin S128x64.rank) ∈ blockDot.rhsBatch by decide), dif_pos (show (1 : Fin S128x64.rank) ∈ blockDot.rhsNonContracting by decide)]
  rfl

/-- Entry (row of `j`, `k`) of the block of rows, and entry (`k`, column of `j`) of the weights. -/
abbrev rowAt (j : S5000x64.Idx) (k : Fin 128) : S5000x128.Idx := fun a => match a with
  | ⟨0, _⟩ => ⟨(j 0).val, (j 0).isLt⟩
  | ⟨1, _⟩ => ⟨k.val, k.isLt⟩
abbrev colAt (j : S5000x64.Idx) (k : Fin 128) : S128x64.Idx := fun a => match a with
  | ⟨0, _⟩ => ⟨k.val, k.isLt⟩
  | ⟨1, _⟩ => ⟨(j 1).val, (j 1).isLt⟩

/-- What the body stores, at an index: the narrowing of both operands is the identity over the extended reals and the
    accumulator is zero, so the entry is the plain sum over the 128 contracted features. -/
theorem block_product (x0 : Vec Ideal S5000x128 .f32) (x1 : Vec Ideal S128x64 .f32) (j : S5000x64.Idx) :
    k4_pay1 x0 x1 j = ∑ k : Fin 128, x0 (rowAt j k) * x1 (colAt j k) := by
  unfold k4_pay1
  simp only [shapeCast_self]
  refine (Ideal.matmul_constant_zero_apply blockDot none _ _ j).trans ?_
  rw [← Equiv.sum_comp (ValueIdx.contrEquiv1 blockDot 128 rfl rfl).symm]
  refine Finset.sum_congr rfl fun k _ => ?_
  have hk := ValueIdx.contrEquiv1_symm_val blockDot 128 rfl rfl k
  have el : blockDot.lhsIdx j ((ValueIdx.contrEquiv1 blockDot 128 rfl rfl).symm k) = rowAt j k := funext fun a => Fin.ext (by
    match a with
    | ⟨0, _⟩ => exact lhs_row _ _
    | ⟨1, _⟩ => exact (lhs_col _ _).trans hk)
  have er : blockDot.rhsIdx j ((ValueIdx.contrEquiv1 blockDot 128 rfl rfl).symm k) = colAt j k := funext fun a => Fin.ext (by
    match a with
    | ⟨0, _⟩ => exact (rhs_row _ _).trans hk
    | ⟨1, _⟩ => exact rhs_col _ _)
  rw [el, er]
  rfl

/-! ## From the ten blocks to the whole array -/

/-- The index maps over the grid: at point `t` the rows' block and the output's block are both block `t` of their
    arrays (5000 rows each, all columns); the weights are taken whole at every point. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the ten row blocks is some point's. -/
theorem idx_onto : ∀ q : Fin 10, ∃ t : Fin cfg4.N, win4_2.index t = ![q.val, 0] :=
  (by decide +kernel : ∀ q : Fin 10, ∃ t : Fin grid4.N, win4_2.index t = ![q.val, 0])

/-- What point `t` writes back is block `t` of the dense product of the two whole arrays as the region finds them:
    row `r` of the block is row `5000·t + r` of the array, and the sum over the features is the same sum. -/
theorem flushed_eq (c : Dev nD) (t : Fin cfg4.N) :
    (dat4 V c).flushed 2 t = ((cfg4.win 2).blk t).view.read (Elt Ideal) (Cert.Gcn.dense2 (V c main_v14) (V c main_arg8)) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x64) zeros2]
  obtain ⟨e0, e1, e2, e3, e4⟩ := idx_facts t
  funext j
  refine (block_product _ _ j).trans ?_
  refine Eq.trans ?_ (Cert.Gcn.dense2_apply (V c main_v14) (V c main_arg8) (((cfg4.win 2).blk t).view.emb j)).symm
  refine Finset.sum_congr rfl fun k _ => ?_
  have h0 : ((cfg4.win 0).blk t).view.emb (rowAt j k) = Cert.Gcn.at128 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (colAt j k) = Cert.Gcn.wt128 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  exact congrArg₂ _ (congrArg (V c main_v14) h0) (congrArg (V c main_arg8) h1)

/-- An index of the output array is in point `t`'s block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v30).slice (win4_2.rect t)).set ↔ _
  rw [View.set_slice_whole, Rect.mem_set_unit]
  exact Iff.rfl

/-- The ten blocks tile the output: row `n` is in the block of point `n / 5000`. -/
theorem covered (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- THE ARRAY this region leaves: the dense product of the hidden features and the second (log-variance) head's weight matrix, whole. -/
theorem final (c : Dev nD) : (dat4 V c).arrAt 2 cfg4.N = Cert.Gcn.dense2 (V c main_v14) (V c main_arg8) :=
  (dat4 V c).arrAt_eq_of_cover 2 _ (fun t _ => flushed_eq V c t) covered

end Cert.KernelIdeal.Region4

end
-- ==== Proof.Region5.lean ====
/-
  The second (log-variance) head's bias stage: a bias of length 64 added to every row of a [50000, 64] array.

  The grid has ten points. Point t stages rows 5000·t … 5000·t + 4999 of the array and the whole bias vector,
  adds to each staged row the bias (laid out as one row, spread over the rows)
  and writes the [5000, 64] block back as rows 5000·t … of the output. Entry (p, q) of block t is
  g[5000·t + p, q] + b[q], which is entry (5000·t + p, q) of the whole-array result; the ten blocks tile
  the output.
-/
import proofs.«123303_j8495445311558_1_alg».proof.Proof.Gen.KernelIdeal.Frame
import proofs.«123303_j8495445311558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-! ## A block of the result, at an index -/

/-- What the body stores, at row `p` and column `q` of the block: the bias vector is laid out as one row and that row
    is spread over the 5000 rows, so the entry is the staged entry plus the bias entry of its column. -/
theorem block_entry (x0 : Vec Ideal S5000x64 .f32) (x1 : Vec Ideal S64 .f32) (p : Fin 5000) (q : Fin 64) :
    k5_pay1 x0 x1 (ValueIdx.ix2 p q) = x0 (ValueIdx.ix2 p q) + x1 (ValueIdx.ix1 q) := by
  unfold k5_pay1
  show shapeCast S5000x64 x0 shapeCasts_S5000x64_S5000x64 (ValueIdx.ix2 p q) + broadcastTo S5000x64 (shapeCast S1x64 x1 shapeCasts_S64_S1x64) broadcasts_S1x64_S5000x64 (ValueIdx.ix2 p q) = _
  rw [shapeCast_self, ValueIdx.broadcastTo_1b_ab_apply, ValueIdx.shapeCast_a_1a_apply]

/-! ## From the ten blocks to the whole array -/

/-- The index maps over the grid: at point `t` the input's block and the output's block are both block `t` of their
    arrays (5000 rows each, all columns); the bias vector is taken whole at every point. -/
theorem idx_facts : ∀ t : Fin cfg5.N, win5_0.index t (0 : Fin 2) = win5_2.index t (0 : Fin 2)
    ∧ win5_0.index t (1 : Fin 2) = 0
    ∧ win5_1.index t (0 : Fin 1) = 0
    ∧ win5_2.index t (1 : Fin 2) = 0 :=
  (by decide +kernel : ∀ t : Fin grid5.N, _)

/-- Every one of the ten row blocks is some point's. -/
theorem idx_onto : ∀ q : Fin 10, ∃ t : Fin cfg5.N, win5_2.index t = ![q.val, 0] :=
  (by decide +kernel : ∀ q : Fin 10, ∃ t : Fin grid5.N, win5_2.index t = ![q.val, 0])

/-- What point `t` writes back is block `t` of the whole-array result of the two arrays as the region finds them:
    row `p` of the block is row `5000·t + p` of the array, and the bias entry is the one of the same column. -/
theorem flushed_eq (c : Dev nD) (t : Fin cfg5.N) :
    (dat5 V c).flushed 2 t = ((cfg5.win 2).blk t).view.read (Elt Ideal) (Cert.Gcn.addBias64 (V c main_v43) (V c main_arg9)) := by
  show (cfg5.win 2).cut (grid5.coords t) ((dat5 V c).after 2 t) = _
  rw [after5_2]
  unfold out5_2
  rw [View.canon_unit_zero zeros2]
  simp only [View.ld_unit_zero (S := S5000x64) zeros2, View.ld_unit_zero (S := S64) zeros1]
  obtain ⟨e0, e1, e2, e3⟩ := idx_facts t
  funext j
  obtain ⟨p, q, rfl⟩ : ∃ (p : Fin 5000) (q : Fin 64), j = ValueIdx.ix2 p q := ⟨j 0, j 1, ValueIdx.eq_ix2 j⟩
  refine (block_entry _ _ p q).trans ?_
  refine Eq.trans ?_ (Cert.Gcn.addBias64_apply (V c main_v43) (V c main_arg9) (((cfg5.win 2).blk t).view.emb (ValueIdx.ix2 p q))).symm
  have h0 : ((cfg5.win 0).blk t).view.emb (ValueIdx.ix2 p q) = ((cfg5.win 2).blk t).view.emb (ValueIdx.ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * q.val = win5_2.index t (1 : Fin 2) * 64 + 1 * q.val; omega
  have h1 : ((cfg5.win 1).blk t).view.emb (ValueIdx.ix1 q) = Cert.Gcn.col64 (((cfg5.win 2).blk t).view.emb (ValueIdx.ix2 p q)) := by
    funext a; apply Fin.ext
    match a with
    | ⟨0, _⟩ => show win5_1.index t (0 : Fin 1) * 64 + 1 * q.val = win5_2.index t (1 : Fin 2) * 64 + 1 * q.val; omega
  exact congrArg₂ _ (congrArg (V c main_v43) h0) (congrArg (V c main_arg9) h1)

/-- An index of the output array is in point `t`'s block iff each coordinate is in the block's range on its axis. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v44).slice (win5_2.rect t)).set ↔ _
  rw [View.set_slice_whole, Rect.mem_set_unit]
  exact Iff.rfl

/-- The ten blocks tile the output: row `n` is in the block of point `n / 5000`. -/
theorem covered (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- THE ARRAY this region leaves: the aggregated rows plus the head's bias, whole. -/
theorem final (c : Dev nD) : (dat5 V c).arrAt 2 cfg5.N = Cert.Gcn.addBias64 (V c main_v43) (V c main_arg9) :=
  (dat5 V c).arrAt_eq_of_cover 2 _ (fun t _ => flushed_eq V c t) covered

end Cert.KernelIdeal.Region5

end
-- ==== Proof.Fold.lean ====
/-
  The fold through @main's nine segments, read at the buffers the value depends on.

  Write A0 … A9 for the ten argument arrays as launched. Walking the segment boundaries forward:
    after region 0          %0  = A0 · A4                                   (dense product)
    after the first stretch %13 = the edge aggregation of %0 along (A1, A2) with weights A3
    after region 1          %14 = max(%13 + A5, 0)                          — the hidden features H
    after region 2          %15 = H · A6
    after the second stretch %28 = the edge aggregation of %15
    after region 3          %29 = %28 + A7                                  — the first result
    after region 4          %30 = H · A8
    after the third stretch %43 = the edge aggregation of %30
    after region 5          %44 = %43 + A9                                  — the second result
  A region replaces only its own output array; a host stretch writes only its own results. So every argument
  array still needed, the hidden features and the first result are carried unchanged across the later segments,
  and the two results at the end are the two heads of the hidden layer, as functions of A0 … A9.
-/
import proofs.«123303_j8495445311558_1_alg».proof.Proof.Gen.KernelIdeal.Frame
import proofs.«123303_j8495445311558_1_alg».proof.Proof.Spec
import proofs.«123303_j8495445311558_1_alg».proof.Proof.Region0
import proofs.«123303_j8495445311558_1_alg».proof.Proof.Region1
import proofs.«123303_j8495445311558_1_alg».proof.Proof.Region2
import proofs.«123303_j8495445311558_1_alg».proof.Proof.Region3
import proofs.«123303_j8495445311558_1_alg».proof.Proof.Region4
import proofs.«123303_j8495445311558_1_alg».proof.Proof.Region5
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

/-! ## The three host stretches, from any contents -/

section Stretches
variable (W : Valuation τ sig (Elt Ideal))

/-- The two programs name the same gather and scatter dimensions for rows of width 64. -/
theorem gather64_same : gather_S50000x64_S800000x1_S800000x64_1_0_n_n_0_1_164
    = Cert.ReferenceIdeal.gather_S50000x64_S800000x1_S800000x64_1_0_n_n_0_1_164 := rfl
theorem scatter64_same : scatter_S50000x64_S800000x1_S800000x64_1_0_0_1
    = Cert.ReferenceIdeal.scatter_S50000x64_S800000x1_S800000x64_1_0_0_1 := rfl

set_option maxHeartbeats 1000000 in
/-- The stretch's one result that is used later: the product's rows gathered at the edges' sources, scaled by the edge
    weights and scatter-added at the edges' targets — the operations the reference applies, on the same operands. -/
theorem stretch1_result : StableHlo.after (hostOps1 (F := Ideal)) W (Proc.devRef .tc main_v13)
    = Cert.Gcn.agg128 (W (Proc.devRef .tc main_v0)) (W (Proc.devRef .tc main_arg1)) (W (Proc.devRef .tc main_arg2)) (W (Proc.devRef .tc main_arg3)) := by
  simp only [hostOps1]
  after_results
  rfl
/-- The stretch does not write this buffer. -/
theorem stretch1_keeps_arg1 : StableHlo.after (hostOps1 (F := Ideal)) W (Proc.devRef .tc main_arg1) = W (Proc.devRef .tc main_arg1) := by
  simp only [hostOps1]
  after_results
/-- The stretch does not write this buffer. -/
theorem stretch1_keeps_arg2 : StableHlo.after (hostOps1 (F := Ideal)) W (Proc.devRef .tc main_arg2) = W (Proc.devRef .tc main_arg2) := by
  simp only [hostOps1]
  after_results
/-- The stretch does not write this buffer. -/
theorem stretch1_keeps_arg3 : StableHlo.after (hostOps1 (F := Ideal)) W (Proc.devRef .tc main_arg3) = W (Proc.devRef .tc main_arg3) := by
  simp only [hostOps1]
  after_results
/-- The stretch does not write this buffer. -/
theorem stretch1_keeps_arg5 : StableHlo.after (hostOps1 (F := Ideal)) W (Proc.devRef .tc main_arg5) = W (Proc.devRef .tc main_arg5) := by
  simp only [hostOps1]
  after_results
/-- The stretch does not write this buffer. -/
theorem stretch1_keeps_arg6 : StableHlo.after (hostOps1 (F := Ideal)) W (Proc.devRef .tc main_arg6) = W (Proc.devRef .tc main_arg6) := by
  simp only [hostOps1]
  after_results
/-- The stretch does not write this buffer. -/
theorem stretch1_keeps_arg7 : StableHlo.after (hostOps1 (F := Ideal)) W (Proc.devRef .tc main_arg7) = W (Proc.devRef .tc main_arg7) := by
  simp only [hostOps1]
  after_results
/-- The stretch does not write this buffer. -/
theorem stretch1_keeps_arg8 : StableHlo.after (hostOps1 (F := Ideal)) W (Proc.devRef .tc main_arg8) = W (Proc.devRef .tc main_arg8) := by
  simp only [hostOps1]
  after_results
/-- The stretch does not write this buffer. -/
theorem stretch1_keeps_arg9 : StableHlo.after (hostOps1 (F := Ideal)) W (Proc.devRef .tc main_arg9) = W (Proc.devRef .tc main_arg9) := by
  simp only [hostOps1]
  after_results
set_option maxHeartbeats 1000000 in
/-- The stretch's one result that is used later: the product's rows gathered at the edges' sources, scaled by the edge
    weights and scatter-added at the edges' targets — the operations the reference applies, on the same operands. -/
theorem stretch3_result : StableHlo.after (hostOps3 (F := Ideal)) W (Proc.devRef .tc main_v28)
    = Cert.Gcn.agg64 (W (Proc.devRef .tc main_v15)) (W (Proc.devRef .tc main_arg1)) (W (Proc.devRef .tc main_arg2)) (W (Proc.devRef .tc main_arg3)) := by
  simp only [hostOps3]
  after_results
  unfold Cert.Gcn.agg64 Cert.Gcn.startRows
  rw [gather64_same, scatter64_same]
/-- The stretch does not write this buffer. -/
theorem stretch3_keeps_arg1 : StableHlo.after (hostOps3 (F := Ideal)) W (Proc.devRef .tc main_arg1) = W (Proc.devRef .tc main_arg1) := by
  simp only [hostOps3]
  after_results
/-- The stretch does not write this buffer. -/
theorem stretch3_keeps_arg2 : StableHlo.after (hostOps3 (F := Ideal)) W (Proc.devRef .tc main_arg2) = W (Proc.devRef .tc main_arg2) := by
  simp only [hostOps3]
  after_results
/-- The stretch does not write this buffer. -/
theorem stretch3_keeps_arg3 : StableHlo.after (hostOps3 (F := Ideal)) W (Proc.devRef .tc main_arg3) = W (Proc.devRef .tc main_arg3) := by
  simp only [hostOps3]
  after_results
/-- The stretch does not write this buffer. -/
theorem stretch3_keeps_arg7 : StableHlo.after (hostOps3 (F := Ideal)) W (Proc.devRef .tc main_arg7) = W (Proc.devRef .tc main_arg7) := by
  simp only [hostOps3]
  after_results
/-- The stretch does not write this buffer. -/
theorem stretch3_keeps_arg8 : StableHlo.after (hostOps3 (F := Ideal)) W (Proc.devRef .tc main_arg8) = W (Proc.devRef .tc main_arg8) := by
  simp only [hostOps3]
  after_results
/-- The stretch does not write this buffer. -/
theorem stretch3_keeps_arg9 : StableHlo.after (hostOps3 (F := Ideal)) W (Proc.devRef .tc main_arg9) = W (Proc.devRef .tc main_arg9) := by
  simp only [hostOps3]
  after_results
/-- The stretch does not write this buffer. -/
theorem stretch3_keeps_v14 : StableHlo.after (hostOps3 (F := Ideal)) W (Proc.devRef .tc main_v14) = W (Proc.devRef .tc main_v14) := by
  simp only [hostOps3]
  after_results
set_option maxHeartbeats 1000000 in
/-- The stretch's one result that is used later: the product's rows gathered at the edges' sources, scaled by the edge
    weights and scatter-added at the edges' targets — the operations the reference applies, on the same operands. -/
theorem stretch5_result : StableHlo.after (hostOps5 (F := Ideal)) W (Proc.devRef .tc main_v43)
    = Cert.Gcn.agg64 (W (Proc.devRef .tc main_v30)) (W (Proc.devRef .tc main_arg1)) (W (Proc.devRef .tc main_arg2)) (W (Proc.devRef .tc main_arg3)) := by
  simp only [hostOps5]
  after_results
  unfold Cert.Gcn.agg64 Cert.Gcn.startRows
  rw [gather64_same, scatter64_same]
/-- The stretch does not write this buffer. -/
theorem stretch5_keeps_arg9 : StableHlo.after (hostOps5 (F := Ideal)) W (Proc.devRef .tc main_arg9) = W (Proc.devRef .tc main_arg9) := by
  simp only [hostOps5]
  after_results
/-- The stretch does not write this buffer. -/
theorem stretch5_keeps_v29 : StableHlo.after (hostOps5 (F := Ideal)) W (Proc.devRef .tc main_v29) = W (Proc.devRef .tc main_v29) := by
  simp only [hostOps5]
  after_results

end Stretches

/-! ## The boundaries, forward from the launch memory -/

variable (m : (ℓ : Loc nD τ sig) → Buf (Elt Ideal) ℓ) (ρ : Dev nD → PrngReg)

/-! ### Boundary 1 -/
theorem at1_arg1 (c : Dev nD) : W1 m ρ c (Proc.devRef .tc main_arg1) = m ((c : Thread nD τ).loc main_arg1) :=
  W1_of_ne m ρ c main_arg1 (by decide)
theorem at1_arg2 (c : Dev nD) : W1 m ρ c (Proc.devRef .tc main_arg2) = m ((c : Thread nD τ).loc main_arg2) :=
  W1_of_ne m ρ c main_arg2 (by decide)
theorem at1_arg3 (c : Dev nD) : W1 m ρ c (Proc.devRef .tc main_arg3) = m ((c : Thread nD τ).loc main_arg3) :=
  W1_of_ne m ρ c main_arg3 (by decide)
theorem at1_arg5 (c : Dev nD) : W1 m ρ c (Proc.devRef .tc main_arg5) = m ((c : Thread nD τ).loc main_arg5) :=
  W1_of_ne m ρ c main_arg5 (by decide)
theorem at1_arg6 (c : Dev nD) : W1 m ρ c (Proc.devRef .tc main_arg6) = m ((c : Thread nD τ).loc main_arg6) :=
  W1_of_ne m ρ c main_arg6 (by decide)
theorem at1_arg7 (c : Dev nD) : W1 m ρ c (Proc.devRef .tc main_arg7) = m ((c : Thread nD τ).loc main_arg7) :=
  W1_of_ne m ρ c main_arg7 (by decide)
theorem at1_arg8 (c : Dev nD) : W1 m ρ c (Proc.devRef .tc main_arg8) = m ((c : Thread nD τ).loc main_arg8) :=
  W1_of_ne m ρ c main_arg8 (by decide)
theorem at1_arg9 (c : Dev nD) : W1 m ρ c (Proc.devRef .tc main_arg9) = m ((c : Thread nD τ).loc main_arg9) :=
  W1_of_ne m ρ c main_arg9 (by decide)
/-- Region 0 leaves the first dense product. -/
theorem at1_v0 (c : Dev nD) : W1 m ρ c (Proc.devRef .tc main_v0) = Cert.Gcn.dense1 (m ((c : Thread nD τ).loc main_arg0)) (m ((c : Thread nD τ).loc main_arg4)) :=
  (W1_arr m ρ c 2).trans (Region0.final (V0 m ρ) c)
/-! ### Boundary 2 -/
theorem at2_arg1 (c : Dev nD) : W2 m ρ c (Proc.devRef .tc main_arg1) = m ((c : Thread nD τ).loc main_arg1) :=
  (stretch1_keeps_arg1 (W1 m ρ c)).trans (at1_arg1 m ρ c)
theorem at2_arg2 (c : Dev nD) : W2 m ρ c (Proc.devRef .tc main_arg2) = m ((c : Thread nD τ).loc main_arg2) :=
  (stretch1_keeps_arg2 (W1 m ρ c)).trans (at1_arg2 m ρ c)
theorem at2_arg3 (c : Dev nD) : W2 m ρ c (Proc.devRef .tc main_arg3) = m ((c : Thread nD τ).loc main_arg3) :=
  (stretch1_keeps_arg3 (W1 m ρ c)).trans (at1_arg3 m ρ c)
theorem at2_arg5 (c : Dev nD) : W2 m ρ c (Proc.devRef .tc main_arg5) = m ((c : Thread nD τ).loc main_arg5) :=
  (stretch1_keeps_arg5 (W1 m ρ c)).trans (at1_arg5 m ρ c)
theorem at2_arg6 (c : Dev nD) : W2 m ρ c (Proc.devRef .tc main_arg6) = m ((c : Thread nD τ).loc main_arg6) :=
  (stretch1_keeps_arg6 (W1 m ρ c)).trans (at1_arg6 m ρ c)
theorem at2_arg7 (c : Dev nD) : W2 m ρ c (Proc.devRef .tc main_arg7) = m ((c : Thread nD τ).loc main_arg7) :=
  (stretch1_keeps_arg7 (W1 m ρ c)).trans (at1_arg7 m ρ c)
theorem at2_arg8 (c : Dev nD) : W2 m ρ c (Proc.devRef .tc main_arg8) = m ((c : Thread nD τ).loc main_arg8) :=
  (stretch1_keeps_arg8 (W1 m ρ c)).trans (at1_arg8 m ρ c)
theorem at2_arg9 (c : Dev nD) : W2 m ρ c (Proc.devRef .tc main_arg9) = m ((c : Thread nD τ).loc main_arg9) :=
  (stretch1_keeps_arg9 (W1 m ρ c)).trans (at1_arg9 m ρ c)
/-- The first stretch leaves the aggregated rows of width 128. -/
theorem at2_v13 (c : Dev nD) : W2 m ρ c (Proc.devRef .tc main_v13)
    = Cert.Gcn.agg128 (Cert.Gcn.dense1 (m ((c : Thread nD τ).loc main_arg0)) (m ((c : Thread nD τ).loc main_arg4))) (m ((c : Thread nD τ).loc main_arg1)) (m ((c : Thread nD τ).loc main_arg2)) (m ((c : Thread nD τ).loc main_arg3)) := by
  refine (stretch1_result (W1 m ρ c)).trans ?_
  rw [at1_v0, at1_arg1, at1_arg2, at1_arg3]
/-! ### Boundary 3 -/
theorem at3_arg1 (c : Dev nD) : W3 m ρ c (Proc.devRef .tc main_arg1) = m ((c : Thread nD τ).loc main_arg1) :=
  (W3_of_ne m ρ c main_arg1 (by decide)).trans (at2_arg1 m ρ c)
theorem at3_arg2 (c : Dev nD) : W3 m ρ c (Proc.devRef .tc main_arg2) = m ((c : Thread nD τ).loc main_arg2) :=
  (W3_of_ne m ρ c main_arg2 (by decide)).trans (at2_arg2 m ρ c)
theorem at3_arg3 (c : Dev nD) : W3 m ρ c (Proc.devRef .tc main_arg3) = m ((c : Thread nD τ).loc main_arg3) :=
  (W3_of_ne m ρ c main_arg3 (by decide)).trans (at2_arg3 m ρ c)
theorem at3_arg6 (c : Dev nD) : W3 m ρ c (Proc.devRef .tc main_arg6) = m ((c : Thread nD τ).loc main_arg6) :=
  (W3_of_ne m ρ c main_arg6 (by decide)).trans (at2_arg6 m ρ c)
theorem at3_arg7 (c : Dev nD) : W3 m ρ c (Proc.devRef .tc main_arg7) = m ((c : Thread nD τ).loc main_arg7) :=
  (W3_of_ne m ρ c main_arg7 (by decide)).trans (at2_arg7 m ρ c)
theorem at3_arg8 (c : Dev nD) : W3 m ρ c (Proc.devRef .tc main_arg8) = m ((c : Thread nD τ).loc main_arg8) :=
  (W3_of_ne m ρ c main_arg8 (by decide)).trans (at2_arg8 m ρ c)
theorem at3_arg9 (c : Dev nD) : W3 m ρ c (Proc.devRef .tc main_arg9) = m ((c : Thread nD τ).loc main_arg9) :=
  (W3_of_ne m ρ c main_arg9 (by decide)).trans (at2_arg9 m ρ c)
/-- Region 1 leaves the hidden features. -/
theorem at3_v14 (c : Dev nD) : W3 m ρ c (Proc.devRef .tc main_v14)
    = Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 2).trans ((Region1.final (V2 m ρ) c).trans ?_)
  show Cert.Gcn.relu128 (Cert.Gcn.addBias128 (W2 m ρ c (Proc.devRef .tc main_v13)) (W2 m ρ c (Proc.devRef .tc main_arg5))) = _
  rw [at2_v13, at2_arg5]
  rfl
/-! ### Boundary 4 -/
theorem at4_arg1 (c : Dev nD) : W4 m ρ c (Proc.devRef .tc main_arg1) = m ((c : Thread nD τ).loc main_arg1) :=
  (W4_of_ne m ρ c main_arg1 (by decide)).trans (at3_arg1 m ρ c)
theorem at4_arg2 (c : Dev nD) : W4 m ρ c (Proc.devRef .tc main_arg2) = m ((c : Thread nD τ).loc main_arg2) :=
  (W4_of_ne m ρ c main_arg2 (by decide)).trans (at3_arg2 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg7 (c : Dev nD) : W4 m ρ c (Proc.devRef .tc main_arg7) = m ((c : Thread nD τ).loc main_arg7) :=
  (W4_of_ne m ρ c main_arg7 (by decide)).trans (at3_arg7 m ρ c)
theorem at4_arg8 (c : Dev nD) : W4 m ρ c (Proc.devRef .tc main_arg8) = m ((c : Thread nD τ).loc main_arg8) :=
  (W4_of_ne m ρ c main_arg8 (by decide)).trans (at3_arg8 m ρ c)
theorem at4_arg9 (c : Dev nD) : W4 m ρ c (Proc.devRef .tc main_arg9) = m ((c : Thread nD τ).loc main_arg9) :=
  (W4_of_ne m ρ c main_arg9 (by decide)).trans (at3_arg9 m ρ c)
/-- Region 2 reads the hidden features through an input window and leaves them in place. -/
theorem at4_v14 (c : Dev nD) : W4 m ρ c (Proc.devRef .tc main_v14) = Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W4_arr m ρ c 0).trans (((dat2 (V3 m ρ) c).arrAt_in 0 rfl _).trans (A_eq2 (V3 m ρ) c 0))).trans (at3_v14 m ρ c)
/-- Region 2 leaves the first head's dense product. -/
theorem at4_v15 (c : Dev nD) : W4 m ρ c (Proc.devRef .tc main_v15) = Cert.Gcn.dense2 (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W4_arr m ρ c 2).trans ((Region2.final (V3 m ρ) c).trans ?_)
  show Cert.Gcn.dense2 (W3 m ρ c (Proc.devRef .tc main_v14)) (W3 m ρ c (Proc.devRef .tc main_arg6)) = _
  rw [at3_v14, at3_arg6]
/-! ### Boundary 5 -/
theorem at5_arg1 (c : Dev nD) : W5 m ρ c (Proc.devRef .tc main_arg1) = m ((c : Thread nD τ).loc main_arg1) :=
  (stretch3_keeps_arg1 (W4 m ρ c)).trans (at4_arg1 m ρ c)
theorem at5_arg2 (c : Dev nD) : W5 m ρ c (Proc.devRef .tc main_arg2) = m ((c : Thread nD τ).loc main_arg2) :=
  (stretch3_keeps_arg2 (W4 m ρ c)).trans (at4_arg2 m ρ c)
theorem at5_arg3 (c : Dev nD) : W5 m ρ c (Proc.devRef .tc main_arg3) = m ((c : Thread nD τ).loc main_arg3) :=
  (stretch3_keeps_arg3 (W4 m ρ c)).trans (at4_arg3 m ρ c)
theorem at5_arg7 (c : Dev nD) : W5 m ρ c (Proc.devRef .tc main_arg7) = m ((c : Thread nD τ).loc main_arg7) :=
  (stretch3_keeps_arg7 (W4 m ρ c)).trans (at4_arg7 m ρ c)
theorem at5_arg8 (c : Dev nD) : W5 m ρ c (Proc.devRef .tc main_arg8) = m ((c : Thread nD τ).loc main_arg8) :=
  (stretch3_keeps_arg8 (W4 m ρ c)).trans (at4_arg8 m ρ c)
theorem at5_arg9 (c : Dev nD) : W5 m ρ c (Proc.devRef .tc main_arg9) = m ((c : Thread nD τ).loc main_arg9) :=
  (stretch3_keeps_arg9 (W4 m ρ c)).trans (at4_arg9 m ρ c)
theorem at5_v14 (c : Dev nD) : W5 m ρ c (Proc.devRef .tc main_v14) = Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (stretch3_keeps_v14 (W4 m ρ c)).trans (at4_v14 m ρ c)
/-- The second stretch leaves the aggregated rows of the first head. -/
theorem at5_v28 (c : Dev nD) : W5 m ρ c (Proc.devRef .tc main_v28)
    = Cert.Gcn.agg64 (Cert.Gcn.dense2 (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg1)) (m ((c : Thread nD τ).loc main_arg2)) (m ((c : Thread nD τ).loc main_arg3)) := by
  refine (stretch3_result (W4 m ρ c)).trans ?_
  rw [at4_v15, at4_arg1, at4_arg2, at4_arg3]
/-! ### Boundary 6 -/
theorem at6_arg1 (c : Dev nD) : W6 m ρ c (Proc.devRef .tc main_arg1) = m ((c : Thread nD τ).loc main_arg1) :=
  (W6_of_ne m ρ c main_arg1 (by decide)).trans (at5_arg1 m ρ c)
theorem at6_arg2 (c : Dev nD) : W6 m ρ c (Proc.devRef .tc main_arg2) = m ((c : Thread nD τ).loc main_arg2) :=
  (W6_of_ne m ρ c main_arg2 (by decide)).trans (at5_arg2 m ρ c)
theorem at6_arg3 (c : Dev nD) : W6 m ρ c (Proc.devRef .tc main_arg3) = m ((c : Thread nD τ).loc main_arg3) :=
  (W6_of_ne m ρ c main_arg3 (by decide)).trans (at5_arg3 m ρ c)
theorem at6_arg8 (c : Dev nD) : W6 m ρ c (Proc.devRef .tc main_arg8) = m ((c : Thread nD τ).loc main_arg8) :=
  (W6_of_ne m ρ c main_arg8 (by decide)).trans (at5_arg8 m ρ c)
theorem at6_arg9 (c : Dev nD) : W6 m ρ c (Proc.devRef .tc main_arg9) = m ((c : Thread nD τ).loc main_arg9) :=
  (W6_of_ne m ρ c main_arg9 (by decide)).trans (at5_arg9 m ρ c)
theorem at6_v14 (c : Dev nD) : W6 m ρ c (Proc.devRef .tc main_v14) = Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_of_ne m ρ c main_v14 (by decide)).trans (at5_v14 m ρ c)
/-- Region 3 leaves the first result. -/
theorem at6_v29 (c : Dev nD) : W6 m ρ c (Proc.devRef .tc main_v29) = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7)) := by
  refine (W6_arr m ρ c 2).trans ((Region3.final (V5 m ρ) c).trans ?_)
  show Cert.Gcn.addBias64 (W5 m ρ c (Proc.devRef .tc main_v28)) (W5 m ρ c (Proc.devRef .tc main_arg7)) = _
  rw [at5_v28, at5_arg7]
  rfl
/-! ### Boundary 7 -/
theorem at7_arg1 (c : Dev nD) : W7 m ρ c (Proc.devRef .tc main_arg1) = m ((c : Thread nD τ).loc main_arg1) :=
  (W7_of_ne m ρ c main_arg1 (by decide)).trans (at6_arg1 m ρ c)
theorem at7_arg2 (c : Dev nD) : W7 m ρ c (Proc.devRef .tc main_arg2) = m ((c : Thread nD τ).loc main_arg2) :=
  (W7_of_ne m ρ c main_arg2 (by decide)).trans (at6_arg2 m ρ c)
theorem at7_arg3 (c : Dev nD) : W7 m ρ c (Proc.devRef .tc main_arg3) = m ((c : Thread nD τ).loc main_arg3) :=
  (W7_of_ne m ρ c main_arg3 (by decide)).trans (at6_arg3 m ρ c)
theorem at7_arg9 (c : Dev nD) : W7 m ρ c (Proc.devRef .tc main_arg9) = m ((c : Thread nD τ).loc main_arg9) :=
  (W7_of_ne m ρ c main_arg9 (by decide)).trans (at6_arg9 m ρ c)
theorem at7_v29 (c : Dev nD) : W7 m ρ c (Proc.devRef .tc main_v29) = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7)) :=
  (W7_of_ne m ρ c main_v29 (by decide)).trans (at6_v29 m ρ c)
/-- Region 4 leaves the second head's dense product. -/
theorem at7_v30 (c : Dev nD) : W7 m ρ c (Proc.devRef .tc main_v30) = Cert.Gcn.dense2 (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) := by
  refine (W7_arr m ρ c 2).trans ((Region4.final (V6 m ρ) c).trans ?_)
  show Cert.Gcn.dense2 (W6 m ρ c (Proc.devRef .tc main_v14)) (W6 m ρ c (Proc.devRef .tc main_arg8)) = _
  rw [at6_v14, at6_arg8]
/-! ### Boundary 8 -/
theorem at8_arg9 (c : Dev nD) : W8 m ρ c (Proc.devRef .tc main_arg9) = m ((c : Thread nD τ).loc main_arg9) :=
  (stretch5_keeps_arg9 (W7 m ρ c)).trans (at7_arg9 m ρ c)
theorem at8_v29 (c : Dev nD) : W8 m ρ c (Proc.devRef .tc main_v29) = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7)) :=
  (stretch5_keeps_v29 (W7 m ρ c)).trans (at7_v29 m ρ c)
/-- The third stretch leaves the aggregated rows of the second head. -/
theorem at8_v43 (c : Dev nD) : W8 m ρ c (Proc.devRef .tc main_v43)
    = Cert.Gcn.agg64 (Cert.Gcn.dense2 (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8))) (m ((c : Thread nD τ).loc main_arg1)) (m ((c : Thread nD τ).loc main_arg2)) (m ((c : Thread nD τ).loc main_arg3)) := by
  refine (stretch5_result (W7 m ρ c)).trans ?_
  rw [at7_v30, at7_arg1, at7_arg2, at7_arg3]
/-! ### The end -/

/-- THE FIRST RESULT at the end of @main: the first head of the hidden layer. -/
theorem end_mu (c : Dev nD) : W9 m ρ c (Proc.devRef .tc main_v29) = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7)) :=
  (W9_of_ne m ρ c main_v29 (by decide)).trans (at8_v29 m ρ c)

/-- THE SECOND RESULT at the end of @main: the second head of the hidden layer. -/
theorem end_logvar (c : Dev nD) : W9 m ρ c (Proc.devRef .tc main_v44) = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg8)) (m ((c : Thread nD τ).loc main_arg9)) := by
  refine (W9_arr m ρ c 2).trans ((Region5.final (V8 m ρ) c).trans ?_)
  show Cert.Gcn.addBias64 (W8 m ρ c (Proc.devRef .tc main_v43)) (W8 m ρ c (Proc.devRef .tc main_arg9)) = _
  rw [at8_v43, at8_arg9]
  rfl

end Cert.KernelIdeal.Fold

end
-- ==== Proof.lean ====
/-
  A two-layer graph-convolution encoder, its Pallas implementation against its jnp reference.

  Inputs: node features x [50000, 256]; 800000 edges (src, dst) with weights ew; weights and biases W1 [256, 128], b1,
  Wmu [128, 64], bmu, Wlv [128, 64], blv. A graph convolution of features h with (W, b) is

      conv(h, W, b)[n, :] = b + Σ over edges e with dst[e] = n of ew[e] · (h · W)[src[e], :]

  and both programs return ( conv(H, Wmu, bmu), conv(H, Wlv, blv) ) with H = max(conv(x, W1, b1), 0).

  The implementation computes each dense product h · W in a pallas_call over ten blocks of 5000 rows (operands narrowed
  to bf16, accumulated in f32 from zero) and each "+ b" (and the maximum with zero) in another pallas_call over the same
  ten blocks; the gather / scale / scatter-add between them is plain host code, the very operations of the reference.
  Over the extended reals a narrowing is the identity and a block of a dense product is the same sum over the
  contracted axis as the corresponding rows of the whole product, so every region leaves exactly the array the
  reference's corresponding operation computes, and the two programs compute one function of the arguments. No
  algebraic law beyond that is involved: the sums are the same sums, term by term, so the finiteness of the inputs
  is not used.

  The three frames: the two kernel programs by the generated frame proofs; the reference by its generated run. The
  idealization rewrote no operation, so there is nothing to preserve.
-/
import proofs.«123303_j8495445311558_1_alg».proof.Defs
import proofs.«123303_j8495445311558_1_alg».proof.Proof.Gen.Kernel
import proofs.«123303_j8495445311558_1_alg».proof.Proof.Gen.Kernel.Skeleton
import proofs.«123303_j8495445311558_1_alg».proof.Proof.Gen.Kernel.Launch
import proofs.«123303_j8495445311558_1_alg».proof.Proof.Gen.Kernel.Points
import proofs.«123303_j8495445311558_1_alg».proof.Proof.Gen.Kernel.Frame
import proofs.«123303_j8495445311558_1_alg».proof.Proof.Gen.KernelIdeal
import proofs.«123303_j8495445311558_1_alg».proof.Proof.Gen.KernelIdeal.Skeleton
import proofs.«123303_j8495445311558_1_alg».proof.Proof.Gen.KernelIdeal.Launch
import proofs.«123303_j8495445311558_1_alg».proof.Proof.Gen.KernelIdeal.Points
import proofs.«123303_j8495445311558_1_alg».proof.Proof.Gen.KernelIdeal.Frame
import proofs.«123303_j8495445311558_1_alg».proof.Proof.Gen.ReferenceIdeal
import proofs.«123303_j8495445311558_1_alg».proof.Proof.Gen.Pre_finite_inputs
import proofs.«123303_j8495445311558_1_alg».proof.Proof.Gen.ReferenceIdeal.Run
import proofs.«123303_j8495445311558_1_alg».proof.Proof.Gen.ReferenceIdeal.Read
import proofs.«123303_j8495445311558_1_alg».proof.Proof.Spec
import proofs.«123303_j8495445311558_1_alg».proof.Proof.EndState
import proofs.«123303_j8495445311558_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference has no kernel: its frame is its run with the two results dropped. -/
theorem frame_referenceIdeal : Cert.frame_ReferenceIdeal :=
  fun m ρ _ => (θ_run Cert.ReferenceIdeal.defs _ _).mono (fun _ h c => (h c).2.2) (Cert.ReferenceIdeal.Value.run (F := Ideal) m ρ)

/-! ## The value -/

/-- From memories that agree on the ten arguments both idealized programs end with the two heads of the hidden layer
    of those arguments in their result buffers: the kernel program by the fold through its nine segments, the
    reference by its run, whose composed term is that function by definition. -/
theorem algebraic : Cert.algebraic_KernelIdeal_ReferenceIdeal := by
  intro m ρ m' ρ' _ hagree
  refine ⟨_, _, (θ_run Cert.KernelIdeal.defs _ _).mono (fun r h c => ⟨
        (Cert.KernelIdeal.EndState.end_at m ρ r h c Cert.KernelIdeal.main_v29 (by decide)).trans (Cert.KernelIdeal.Fold.end_mu m ρ c),
        (Cert.KernelIdeal.EndState.end_at m ρ r h c Cert.KernelIdeal.main_v44 (by decide)).trans (Cert.KernelIdeal.Fold.end_logvar m ρ c),
        (Cert.KernelIdeal.EndState.end_at m ρ r h c Cert.KernelIdeal.main_arg0 (by decide)).trans (Cert.KernelIdeal.Gen.W9_main_arg0 m ρ c),
        (Cert.KernelIdeal.EndState.end_at m ρ r h c Cert.KernelIdeal.main_arg1 (by decide)).trans (Cert.KernelIdeal.Gen.W9_main_arg1 m ρ c),
        (Cert.KernelIdeal.EndState.end_at m ρ r h c Cert.KernelIdeal.main_arg2 (by decide)).trans (Cert.KernelIdeal.Gen.W9_main_arg2 m ρ c),
        (Cert.KernelIdeal.EndState.end_at m ρ r h c Cert.KernelIdeal.main_arg3 (by decide)).trans (Cert.KernelIdeal.Gen.W9_main_arg3 m ρ c),
        (Cert.KernelIdeal.EndState.end_at m ρ r h c Cert.KernelIdeal.main_arg4 (by decide)).trans (Cert.KernelIdeal.Gen.W9_main_arg4 m ρ c),
        (Cert.KernelIdeal.EndState.end_at m ρ r h c Cert.KernelIdeal.main_arg5 (by decide)).trans (Cert.KernelIdeal.Gen.W9_main_arg5 m ρ c),
        (Cert.KernelIdeal.EndState.end_at m ρ r h c Cert.KernelIdeal.main_arg6 (by decide)).trans (Cert.KernelIdeal.Gen.W9_main_arg6 m ρ c),
        (Cert.KernelIdeal.EndState.end_at m ρ r h c Cert.KernelIdeal.main_arg7 (by decide)).trans (Cert.KernelIdeal.Gen.W9_main_arg7 m ρ c),
        (Cert.KernelIdeal.EndState.end_at m ρ r h c Cert.KernelIdeal.main_arg8 (by decide)).trans (Cert.KernelIdeal.Gen.W9_main_arg8 m ρ c),
        (Cert.KernelIdeal.EndState.end_at m ρ r h c Cert.KernelIdeal.main_arg9 (by decide)).trans (Cert.KernelIdeal.Gen.W9_main_arg9 m ρ c)⟩)
      (Cert.KernelIdeal.EndState.run_end m ρ), ?_⟩
  refine (θ_run Cert.ReferenceIdeal.defs _ _).mono (fun _ h c => ⟨?_, ?_, (h c).2.2⟩) (Cert.ReferenceIdeal.Value.run (F := Ideal) m' ρ')
  · refine (h c).1.trans ?_
    obtain ⟨g0, g1, g2, g3, g4, g5, g6, g7, g8, g9⟩ := hagree c
    rw [g0, g1, g2, g3, g4, g5, g6, g7]
    exact (Cert.ReferenceIdeal.Read.val_main_v34_eq _ _ _ _ _ _ _ _).trans (Cert.Gcn.ref_mu _ _ _ _ _ _ _ _)
  · refine (h c).2.1.trans ?_
    obtain ⟨g0, g1, g2, g3, g4, g5, g6, g7, g8, g9⟩ := hagree c
    rw [g0, g1, g2, g3, g4, g5, g8, g9]
    exact (Cert.ReferenceIdeal.Read.val_main_v51_eq _ _ _ _ _ _ _ _).trans (Cert.Gcn.ref_logvar _ _ _ _ _ _ _ _)

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
